-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x256x256 : Shape := ⟨3, ![4096, 256, 256]⟩
abbrev S128x128 : Shape := ⟨2, ![128, 128]⟩
abbrev S128x256 : Shape := ⟨2, ![128, 256]⟩
abbrev S128x128x256 : Shape := ⟨3, ![128, 128, 256]⟩
abbrev S16x128 : Shape := ⟨2, ![16, 128]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S4096x65536 : Shape := ⟨2, ![4096, 65536]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256x256, .f32⟩
  | .hbm, ⟨3, _⟩ => ⟨S4096x65536, .f32⟩
  | .local _ .vmem, ⟨0, _⟩ => ⟨S128x128, .f32⟩
  | .local _ .vmem, ⟨1, _⟩ => ⟨S128x128, .f32⟩
  | .local _ .vmem, ⟨2, _⟩ => ⟨S128x256, .f32⟩
  | .local _ .vmem, ⟨3, _⟩ => ⟨S128x256, .f32⟩
  | .local _ .vmem, ⟨4, _⟩ => ⟨S128x128x256, .f32⟩
  | .local _ .vmem, ⟨5, _⟩ => ⟨S128x128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  let v2 : BitVec 32 := v1
  let v5 : Index := Scalar.indexCast v2
  let c0_1 : Index := 0#32
  ![v5.toNat, 0]
def k0_off3 (k0_t1 : Fin k0_t1_loop.trips) : Fin 3 → Nat :=
  let c0_i32 : BitVec 32 := 0#32
  let c1_i32 : BitVec 32 := 1#32
  let arg5 : BitVec 32 := Scf.iv c0_i32 c1_i32 k0_t1
  let c16_i32 : BitVec 32 := 16#32
  let v1 : BitVec 32 := Scalar.muli arg5 c16_i32
  let v2 : BitVec 32 := v1
  let v12 : Index := Scalar.indexCast v2
  let c0_2 : Index := 0#32
  let c0_3 : Index := 0#32
  ![v12.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S16x128 : 0 < S16x128.numel
  h_S16x256 : 0 < S16x256.numel
  shapeCasts_S16x128_S16x128x1 : S16x128.ShapeCasts S16x128x1
  shapeCasts_S16x256_S16x1x256 : S16x256.ShapeCasts S16x1x256
  broadcasts_S16x128x1_S16x128x256 : S16x128x1.Broadcasts S16x128x256
  broadcasts_S16x1x256_S16x128x256 : S16x1x256.Broadcasts S16x128x256
  h_S16x128x256 : 0 < S16x128x256.numel
  shapeCasts_S4096x256x256_S4096x65536 : S4096x256x256.ShapeCasts S4096x65536
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128.size a ≤ S128x128.size a
  k0_off2_inb : ∀ k0_t1 : Fin k0_t1_loop.trips, ∀ a, (k0_off2 k0_t1) a + S16x256.size a ≤ S128x256.size a
  k0_off3_inb : ∀ k0_t1 : Fin k0_t1_loop.trips, ∀ a, (k0_off3 k0_t1) a + S16x128x256.size a ≤ S128x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x256.size a
  hwx0_0 : ∀ i : grid0.Coords, EltTy.bits .f32 = 32 ∨ (Rect.block (s := S4096x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .f32 = 32 ∨ (Rect.block (s := S4096x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128x256.size a ≤ S4096x256x256.size a
  hwx0_2 : ∀ i : grid0.Coords, EltTy.bits .f32 = 32 ∨ (Rect.block (s := S4096x256x256) S128x128x256.size (cc0_transform_2 i) (hinb0_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x256x1 : Shape := ⟨3, ![4096, 256, 1]⟩
abbrev S4096x1x256 : Shape := ⟨3, ![4096, 1, 256]⟩
abbrev S4096x256x256 : Shape := ⟨3, ![4096, 256, 256]⟩
abbrev S4096x65536 : Shape := ⟨2, ![4096, 65536]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256x1, .f32⟩
  | .hbm, ⟨3, _⟩ => ⟨S4096x1x256, .f32⟩
  | .hbm, ⟨4, _⟩ => ⟨S4096x256x256, .f32⟩
  | .hbm, ⟨5, _⟩ => ⟨S4096x256x256, .f32⟩
  | .hbm, ⟨6, _⟩ => ⟨S4096x256x256, .f32⟩
  | .hbm, ⟨7, _⟩ => ⟨S4096x65536, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S4096x256_S4096x256x1_0_1 : S4096x256.BroadcastsInDim S4096x256x1 (![0, 1] : Fin 2 → Fin S4096x256x1.rank)
  bcast_S4096x256_S4096x1x256_0_2 : S4096x256.BroadcastsInDim S4096x1x256 (![0, 2] : Fin 2 → Fin S4096x1x256.rank)
  bcast_S4096x256x1_S4096x256x256_0_1_2 : S4096x256x1.BroadcastsInDim S4096x256x256 (![0, 1, 2] : Fin 3 → Fin S4096x256x256.rank)
  bcast_S4096x1x256_S4096x256x256_0_1_2 : S4096x1x256.BroadcastsInDim S4096x256x256 (![0, 1, 2] : Fin 3 → Fin S4096x256x256.rank)
  shapeCasts_S4096x256x256_S4096x65536 : S4096x256x256.ShapeCasts S4096x65536

variable [Facts₀]

class Facts : Prop extends Facts₀ where

variable [Facts]
-- ==== Proof.Spec.lean ====
/-
  The batched outer product.  For arrays x of n rows and a columns and y of n rows and b columns, the array
  `outer x y` has n slabs of a rows and b columns, and its entry (i, j, k) is the product x[i, j] · y[i, k]:
  slab i is the outer product of row i of x with row i of y.  The multiplication is the one of the float instance
  the arrays are read at, so the definition is the same function at every instance.
-/
import Idealize.ShloMosaic.PureOps.Ideal
import Idealize.ShloMosaic.Lib.ValueIdx

noncomputable section

namespace OuterFlat

open Idealize.ShloMosaic Idealize.ShloMosaic.ValueIdx

variable {F : FTy → Type} [FloatOps F]

/-- Entry (i, j, k) of the batched outer product is x[i, j] · y[i, k]. -/
def outer {n a b : Nat} (x : (⟨2, ![n, a]⟩ : Shape).Idx → F .f32) (y : (⟨2, ![n, b]⟩ : Shape).Idx → F .f32) :
    (⟨3, ![n, a, b]⟩ : Shape).Idx → F .f32 :=
  fun i => FloatOps.mulf (x (ix2 (n0 := n) (n1 := a) (i 0) (i 1))) (y (ix2 (n0 := n) (n1 := b) (i 0) (i 2)))

/-- The definition, at coordinates. -/
theorem outer_apply {n a b : Nat} (x : (⟨2, ![n, a]⟩ : Shape).Idx → F .f32) (y : (⟨2, ![n, b]⟩ : Shape).Idx → F .f32)
    (i : Fin n) (j : Fin a) (k : Fin b) :
    outer x y (ix3 i j k) = FloatOps.mulf (x (ix2 i j)) (y (ix2 i k)) := rfl

/-- Two entries of the outer product agree as soon as the entries of x and of y they read agree. -/
theorem outer_congr {n a b n' a' b' : Nat}
    (x : (⟨2, ![n, a]⟩ : Shape).Idx → F .f32) (y : (⟨2, ![n, b]⟩ : Shape).Idx → F .f32)
    (x' : (⟨2, ![n', a']⟩ : Shape).Idx → F .f32) (y' : (⟨2, ![n', b']⟩ : Shape).Idx → F .f32)
    (i : (⟨3, ![n, a, b]⟩ : Shape).Idx) (i' : (⟨3, ![n', a', b']⟩ : Shape).Idx)
    (hx : x (ix2 (n0 := n) (n1 := a) (i 0) (i 1)) = x' (ix2 (n0 := n') (n1 := a') (i' 0) (i' 1)))
    (hy : y (ix2 (n0 := n) (n1 := b) (i 0) (i 2)) = y' (ix2 (n0 := n') (n1 := b') (i' 0) (i' 2))) :
    outer x y i = outer x' y' i' := by
  unfold outer; rw [hx, hy]

end OuterFlat

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.BlockValue.lean ====
/-
  What one grid point's body leaves in the output block.

  The body walks the 128 rows of the point's blocks in 8 chunks of 16 rows.  Chunk c reads rows 16c … 16c+15 of the
  x block (128 columns) and of the y block (256 columns), forms for each of those rows r the products
  x[r, q] · y[r, l] for all q and l, and stores them as slabs 16c … 16c+15 of the output block.  The 8 stores
  tile the block, and each is the restriction to its slabs of one function of the block's index, the outer product
  of the two input blocks row by row.  So after the body the output block IS that outer product (`out_eq`).
-/
import proofs.«110670_j17746804867414_2_alg».proof.Proof.Gen.KernelIdeal.Frame
import proofs.«110670_j17746804867414_2_alg».proof.Proof.Spec
import proofs.«110670_j17746804867414_2_alg».proof.Proof.LibLayout
import Idealize.ShloMosaic.Lib.Pipeline.Value
import Idealize.ShloMosaic.Lib.ValueIdx

noncomputable section

namespace Cert.KernelIdeal.Block

open Cert.KernelIdeal Cert.KernelIdeal.Gen
open Idealize.ShloMosaic Idealize.ShloMosaic.TcCoe Idealize.ShloMosaic.ValueIdx
open Idealize.SL.Sem
open PushPull.Layout OuterFlat

variable {F : FTy → Type} [FloatOps F]

/-- The chunk's arithmetic at coordinates: row r of the x chunk against row r of the y chunk, entry by entry
    (the two unit axes the casts insert are read at 0 and the broadcasts repeat along them). -/
theorem pay_apply (v4 : Vec F S16x128 .f32) (v6 : Vec F S16x256 .f32) (r : Fin 16) (q : Fin 128) (l : Fin 256) :
    k0_pay1 v4 v6 (ix3 r q l) = FloatOps.mulf (v4 (ix2 r q)) (v6 (ix2 r l)) := by
  unfold k0_pay1
  show FloatOps.mulf (broadcastTo S16x128x256 (shapeCast S16x128x1 v4 _) _ (ix3 r q l))
      (broadcastTo S16x128x256 (shapeCast S16x1x256 v6 _) _ (ix3 r q l)) = _
  refine congrArg₂ FloatOps.mulf ?_ ?_
  · exact (bcast_ab1 _ _ r q l).trans (cast_ab_ab1 v4 _ r q 0)
  · exact (bcast_a1b _ _ r q l).trans (cast_ab_a1b v6 _ r 0 l)

/-- Chunk k's store is the restriction of the blocks' outer product to slabs 16k … 16k+15: the x and y rows it
    loaded start at row 16k, and so do the slabs it writes. -/
theorem piece_ok (k : Fin k0_t1_loop.trips) (x0 : Vec F S128x128 .f32) (x1 : Vec F S128x256 .f32)
    (x : S16x128x256.Idx) :
    k0_pay1 (View.ld x0 (Rect.unit (s := S128x128) (k0_off1 k) S16x128.size (k0_off1_inb k)))
        (View.ld x1 (Rect.unit (s := S128x256) (k0_off2 k) S16x256.size (k0_off2_inb k))) x
      = outer (n := 128) (a := 128) (b := 256) x0 x1
          ((Rect.unit (s := S128x128x256) (k0_off3 k) S16x128x256.size (k0_off3_inb k)).emb x) := by
  obtain ⟨r, q, l, rfl⟩ : ∃ (r : Fin 16) (q : Fin 128) (l : Fin 256), x = ix3 r q l := ⟨x 0, x 1, x 2, eq_ix3 x⟩
  rw [pay_apply]
  unfold outer
  refine congrArg₂ FloatOps.mulf (congrArg x0 ?_) (congrArg x1 ?_)
  · funext a; apply Fin.ext
    match a with
    | ⟨0, _⟩ => show (k0_off1 k) 0 + 1 * r.val = (k0_off3 k) 0 + 1 * r.val; rw [k0_off1_eq, k0_off3_eq]; rfl
    | ⟨1, _⟩ => show (k0_off1 k) 1 + 1 * q.val = (k0_off3 k) 1 + 1 * q.val; rw [k0_off1_eq, k0_off3_eq]; rfl
  · funext a; apply Fin.ext
    match a with
    | ⟨0, _⟩ => show (k0_off2 k) 0 + 1 * r.val = (k0_off3 k) 0 + 1 * r.val; rw [k0_off2_eq, k0_off3_eq]; rfl
    | ⟨1, _⟩ => show (k0_off2 k) 1 + 1 * l.val = (k0_off3 k) 2 + 1 * l.val; rw [k0_off2_eq, k0_off3_eq]; rfl

/-- One trip of the loop leaves ONE store: at the trip's slabs, the chunk's arithmetic of the two loads at the
    trip's rows. -/
theorem trip_piece (𝒱 : Variants) (c : Dev nD) (bd : Option 𝒱.V) (i : grid0.Coords)
    (arg2 : Memref sig .tc .vmem S128x128 .f32) (harg2 : arg2.IsWhole) (arg3 : Memref sig .tc .vmem S128x256 .f32) (harg3 : arg3.IsWhole)
    (arg4 : Memref sig .tc .vmem S128x128x256 .f32) (harg4 : arg4.IsWhole)
    (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 X2 X3 k
      = [⟨Rect.unit (s := S128x128x256) (k0_off3 k) S16x128x256.size (k0_off3_inb k),
          k0_pay1 (View.readAt (Elt F) arg2.view (Rect.unit (s := S128x128) (k0_off1 k) S16x128.size (k0_off1_inb k)).toLoadRect X2)
            (View.readAt (Elt F) arg3.view (Rect.unit (s := S128x256) (k0_off2 k) S16x256.size (k0_off2_inb k)).toLoadRect X3)⟩] := by
  unfold tripL_k0_t1 trip_k0_t1
  rfl

/-- The whole body's stores are the stores of the 8 trips, the last trip's first. -/
theorem run_pieces (c : Dev nD) (i : grid0.Coords)
    (arg2 : Memref sig .tc .vmem S128x128 .f32) (harg2 : arg2.IsWhole) (arg3 : Memref sig .tc .vmem S128x256 .f32) (harg3 : arg3.IsWhole)
    (arg4 : Memref sig .tc .vmem S128x128x256 .f32) (harg4 : arg4.IsWhole)
    (x0 : Vec F S128x128 .f32) (x1 : Vec F S128x256 .f32) :
    (kernelRun0_A (F := F) c i arg2 harg2 arg3 harg3 arg4 harg4 x0 x1).1
      = pb_k0_t1 (F := F) Variants.none c none i arg2 harg2 arg3 harg3 arg4 harg4 (harg2.unread x0) (harg3.unread x1) k0_t1_loop.trips := by
  unfold kernelRun0_A
  rfl

/-- Every store of the first n trips is a restriction of the blocks' outer product: by induction on n, each trip
    adding its one store in front. -/
theorem pb_pieces (c : Dev nD) (i : grid0.Coords)
    (arg2 : Memref sig .tc .vmem S128x128 .f32) (harg2 : arg2.IsWhole) (arg3 : Memref sig .tc .vmem S128x256 .f32) (harg3 : arg3.IsWhole)
    (arg4 : Memref sig .tc .vmem S128x128x256 .f32) (harg4 : arg4.IsWhole)
    (x0 : Vec F S128x128 .f32) (x1 : Vec F S128x256 .f32) :
    ∀ n, n ≤ k0_t1_loop.trips →
      ∀ p ∈ pb_k0_t1 (F := F) Variants.none c none i arg2 harg2 arg3 harg3 arg4 harg4 (harg2.unread x0) (harg3.unread x1) n,
        ∀ x : p.1.shape.Idx, p.2 x = outer (n := 128) (a := 128) (b := 256) x0 x1 (p.1.emb x) := by
  intro n
  induction n with
  | zero =>
    intro _ p hp
    rw [pb_k0_t1.eq_1] at hp
    exact absurd hp List.not_mem_nil
  | succ n ih =>
    intro hn p hp x
    have hs := pb_k0_t1_succ (F := F) Variants.none c none i arg2 harg2 arg3 harg3 arg4 harg4 (harg2.unread x0) (harg3.unread x1)
      ⟨n, Nat.lt_of_succ_le hn⟩
    rw [show pb_k0_t1 (F := F) Variants.none c none i arg2 harg2 arg3 harg3 arg4 harg4 (harg2.unread x0) (harg3.unread x1) (n + 1) = _ from hs,
      trip_piece] at hp
    rcases List.mem_append.mp hp with h | h
    · obtain rfl := List.mem_singleton.mp h
      show k0_pay1 _ _ x = _
      rw [View.readAt_eq_ld, View.readAt_eq_ld, harg2.read_unread, harg3.read_unread]
      exact piece_ok ⟨n, Nat.lt_of_succ_le hn⟩ x0 x1 x
    · exact ih (Nat.le_of_succ_le hn) p h x

/-- After the body the output block is the outer product of the x block and the y block, row by row: the stores
    cover the block and each is a restriction of that one function. -/
theorem out_eq (c : Dev nD) (i : grid0.Coords)
    (arg2 : Memref sig .tc .vmem S128x128 .f32) (harg2 : arg2.IsWhole) (arg3 : Memref sig .tc .vmem S128x256 .f32) (harg3 : arg3.IsWhole)
    (arg4 : Memref sig .tc .vmem S128x128x256 .f32) (harg4 : arg4.IsWhole)
    (x0 : Vec F S128x128 .f32) (x1 : Vec F S128x256 .f32) :
    out0_A_2 (F := F) c i arg2 harg2 arg3 harg3 arg4 harg4 x0 x1 = outer (n := 128) (a := 128) (b := 256) x0 x1 := by
  unfold out0_A_2
  rw [View.read_writes_eq_canon _ _ _ (cover0_A_2 c i arg2 harg2 arg3 harg3 arg4 harg4 x0 x1)]
  funext y
  refine View.canon_apply_of_pieces (outer (n := 128) (a := 128) (b := 256) x0 x1) _ ?_ y
    (cover0_A_2 c i arg2 harg2 arg3 harg3 arg4 harg4 x0 x1 y)
  rw [run_pieces]
  exact pb_pieces c i arg2 harg2 arg3 harg3 arg4 harg4 x0 x1 _ (Nat.le_refl _)

end Cert.KernelIdeal.Block

end
-- ==== Proof.KernelArray.lean ====
/-
  From the blocks to the whole array, and through the final flattening.

  The grid has 32 × 2 points; point (p, s) works on rows 128p … 128p+127 of x and y, on columns 128s … 128s+127 of x
  and on all 256 columns of y, and writes slabs 128p … 128p+127, rows 128s … 128s+127 of the output.  The body leaves
  in the output block the outer product of its two input blocks, and an input block is a block of the argument, so
  what a point writes back is its block of the outer product of the two ARGUMENT arrays.  The 64 blocks cover the
  output array, which therefore ends holding that outer product; the host's final reshape then flattens it.
-/
import proofs.«110670_j17746804867414_2_alg».proof.Proof.Gen.KernelIdeal.Frame
import proofs.«110670_j17746804867414_2_alg».proof.Proof.BlockValue
import proofs.«110670_j17746804867414_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Whole

open Cert.KernelIdeal Cert.KernelIdeal.Gen
open Idealize.ShloMosaic Idealize.ShloMosaic.TcCoe Idealize.ShloMosaic.ValueIdx
open Idealize.SL.Sem
open Idealize.ShloMosaic.Pipeline (Dat)
open OuterFlat

variable {F : FTy → Type} [FloatOps F]
variable (m : (ℓ : Loc nD τ sig) → Buf (Elt F) ℓ) (ρ : Dev nD → PrngReg)

/-- The index maps over the grid: the x block and the output block share their row-block and column-block numbers,
    the y block shares the row-block number and sits at column block 0, the output block sits at depth block 0; and
    point t is row block t / 2, column block t % 2. -/
theorem idx_facts : ∀ t : Fin cfg0.N,
    win0_0.index t (0 : Fin 2) = win0_2.index t (0 : Fin 3)
    ∧ win0_0.index t (1 : Fin 2) = win0_2.index t (1 : Fin 3)
    ∧ win0_1.index t (0 : Fin 2) = win0_2.index t (0 : Fin 3)
    ∧ win0_1.index t (1 : Fin 2) = 0
    ∧ win0_2.index t (2 : Fin 3) = 0
    ∧ win0_2.index t (0 : Fin 3) = t.val / 2
    ∧ win0_2.index t (1 : Fin 3) = t.val % 2 :=
  (by decide +kernel : ∀ t : Fin grid0.N, _)

/-- The output array the kernel's region leaves: the batched outer product of the two argument arrays. -/
abbrev result (c : Dev nD) : Buf (Elt F) ((c : Thread nD τ).loc main_v0) :=
  outer (n := 4096) (a := 256) (b := 256) (m ((c : Thread nD τ).loc main_arg0)) (m ((c : Thread nD τ).loc main_arg1))

/-- An entry of the x block at point t is the entry of x at block number × 128 + the coordinate, on each axis. -/
theorem iblk0_apply (c : Dev nD) (t : Fin cfg0.N) (z : S128x128.Idx) (k : S4096x256.Idx)
    (hk0 : (k 0).val = win0_0.index t 0 * 128 + (z 0).val) (hk1 : (k 1).val = win0_0.index t 1 * 128 + (z 1).val) :
    (iblk m c 0 t : Vec F S128x128 .f32) z = (m ((c : Thread nD τ).loc main_arg0) : S4096x256.Idx → Elt F .f32) k := by
  unfold iblk
  rw [View.read_apply]
  show V m c main_arg0 (((cfg0.win 0).blk t).view.emb z) = V m c main_arg0 k
  refine congrArg (V m c main_arg0) ?_
  funext a; apply Fin.ext
  match a with
  | ⟨0, _⟩ => show win0_0.index t 0 * 128 + 1 * (z 0).val = (k 0).val; omega
  | ⟨1, _⟩ => show win0_0.index t 1 * 128 + 1 * (z 1).val = (k 1).val; omega

/-- The same for the y block (128 rows, all 256 columns). -/
theorem iblk1_apply (c : Dev nD) (t : Fin cfg0.N) (z : S128x256.Idx) (k : S4096x256.Idx)
    (hk0 : (k 0).val = win0_1.index t 0 * 128 + (z 0).val) (hk1 : (k 1).val = win0_1.index t 1 * 256 + (z 1).val) :
    (iblk m c 1 t : Vec F S128x256 .f32) z = (m ((c : Thread nD τ).loc main_arg1) : S4096x256.Idx → Elt F .f32) k := by
  unfold iblk
  rw [View.read_apply]
  show V m c main_arg1 (((cfg0.win 1).blk t).view.emb z) = V m c main_arg1 k
  refine congrArg (V m c main_arg1) ?_
  funext a; apply Fin.ext
  match a with
  | ⟨0, _⟩ => show win0_1.index t 0 * 128 + 1 * (z 0).val = (k 0).val; omega
  | ⟨1, _⟩ => show win0_1.index t 1 * 256 + 1 * (z 1).val = (k 1).val; omega

/-- What point t writes back is its block of the outer product of the argument arrays. -/
theorem flushed_eq (c : Dev nD) (t : Fin cfg0.N) :
    (dats m 0 c).flushed 2 t = ((cfg0.win 2).blk t).view.read (Elt F) (result m c) := by
  show (cfg0.win 2).cut (grid0.coords t) ((dats m 0 c).after 2 t) = _
  rw [after0_2]
  unfold outsAt0
  rw [Block.out_eq]
  obtain ⟨e0, e1, e2, e3, e4, -, -⟩ := idx_facts t
  funext j
  rw [View.read_apply]
  show outer (n := 128) (a := 128) (b := 256) (iblk m c 0 t) (iblk m c 1 t) j
    = outer (n := 4096) (a := 256) (b := 256) (m ((c : Thread nD τ).loc main_arg0)) (m ((c : Thread nD τ).loc main_arg1))
        (((cfg0.win 2).blk t).view.emb j)
  refine outer_congr _ _ _ _ _ _ ?_ ?_
  · refine iblk0_apply m c t _ _ ?_ ?_
    · show win0_2.index t 0 * 128 + 1 * (j 0).val = win0_0.index t 0 * 128 + (j 0).val; rw [e0]; omega
    · show win0_2.index t 1 * 128 + 1 * (j 1).val = win0_0.index t 1 * 128 + (j 1).val; rw [e1]; omega
  · refine iblk1_apply m c t _ _ ?_ ?_
    · show win0_2.index t 0 * 128 + 1 * (j 0).val = win0_1.index t 0 * 128 + (j 0).val; rw [e2]; omega
    · show win0_2.index t 2 * 256 + 1 * (j 2).val = win0_1.index t 1 * 256 + (j 2).val; rw [e3, e4]; omega

/-- An index of the output array is in point t's block iff each coordinate is in the block's range on its axis. -/
theorem mem_blk (t : Fin cfg0.N) (i : S4096x256x256.Idx) :
    i ∈ ((cfg0.win 2).blk t).view.set ↔ ∀ a : Fin 3, win0_2.index t a * S128x128x256.size a ≤ (i a).val
      ∧ (i a).val < win0_2.index t a * S128x128x256.size a + S128x128x256.size a := by
  show i ∈ ((View.whole main_v0).slice (win0_2.rect t)).set ↔ _
  rw [View.set_slice_whole, Rect.mem_set_unit]
  exact Iff.rfl

/-- Every index of the output array is in some point's block: slab i₀, row i₁ belong to point 2·(i₀ / 128) + i₁ / 128. -/
theorem cover (i : S4096x256x256.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 256 := (i 1).isLt
  have h2 : (i 2).val < 256 := (i 2).isLt
  obtain ⟨t, ht⟩ : ∃ t : Fin cfg0.N, t.val = (i 0).val / 128 * 2 + (i 1).val / 128 :=
    ⟨⟨(i 0).val / 128 * 2 + (i 1).val / 128, by rw [hN]; omega⟩, rfl⟩
  obtain ⟨-, -, -, -, e4, e5, e6⟩ := idx_facts t
  refine ⟨t, flush0_2 t, ?_⟩
  rw [mem_blk]
  intro a
  match a with
  | ⟨0, _⟩ =>
    show win0_2.index t 0 * 128 ≤ (i 0).val ∧ (i 0).val < win0_2.index t 0 * 128 + 128
    rw [e5, ht]; omega
  | ⟨1, _⟩ =>
    show win0_2.index t 1 * 128 ≤ (i 1).val ∧ (i 1).val < win0_2.index t 1 * 128 + 128
    rw [e6, ht]; omega
  | ⟨2, _⟩ =>
    show win0_2.index t 2 * 256 ≤ (i 2).val ∧ (i 2).val < win0_2.index t 2 * 256 + 256
    rw [e4]; omega

/-- So the output array ends holding the outer product of the argument arrays. -/
theorem final_v0 (c : Dev nD) : (dats m 0 c).arrAt 2 cfg0.N = result m c :=
  (dats m 0 c).arrAt_eq_of_cover 2 (result m c) (fun t _ => flushed_eq m c t) cover

/-- The host's reshape after the region flattens that array. -/
theorem tail_eq (c : Dev nD) :
    Pipeline.afterTail₀ cfgs (dats m) 0 (V0 m) [hostOps1] c main_v1
      = shapeCast S4096x65536 (result m c) shapeCasts_S4096x256x256_S4096x65536 := by
  unfold Pipeline.afterTail₀
  show StableHlo.after hostOps1 _ (Proc.devRef .tc main_v1) = _
  after_results
  funext i
  exact congrFun (congrArg (fun z => shapeCast S4096x65536 z shapeCasts_S4096x256x256_S4096x65536)
    ((Pipeline.withArrays_arr spec0 launch0.win.arr_inj c _ _ 2).trans (final_v0 m c))) i

/-- The flattened array is not one of the region's windows: it is among the buffers the lines after the region leave. -/
theorem v1_rest : main_v1 ∈ Pipeline.restRefs sig (cfgs 0).spec :=
  Pipeline.mem_restRefs_of main_v1 rfl (fun w => by fin_cases w <;> decide)

/-- The kernel's program, run: every weakly fair execution ends with the result the flattened outer product of the
    arguments, and the arguments unchanged. -/
theorem run : θ_run defs (onTc (τ := τ) (main (F := F))) ⟨m, fun _ => 0, ρ⟩ fun r => ∀ c : Dev nD,
      r.2.mem ((c : Thread nD τ).loc main_v1) = shapeCast S4096x65536 (result m c) shapeCasts_S4096x256x256_S4096x65536
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.RefValue.lean ====
/-
  The reference computes the same product.  Its program broadcasts x to [4096, 256, 1] and then along the last
  axis, y to [4096, 1, 256] and then along the middle axis, and multiplies entry by entry: at (i, j, k) the first
  operand reads x[i, j] and the second y[i, k].  So the array it forms before the final flattening is the batched
  outer product of x and y.
-/
import proofs.«110670_j17746804867414_2_alg».proof.Proof.Gen.ReferenceIdeal.Read
import proofs.«110670_j17746804867414_2_alg».proof.Proof.Spec
import Idealize.ShloMosaic.Lib.ValueIdx

noncomputable section

namespace Cert.ReferenceIdeal.RefValue

open Cert.ReferenceIdeal Cert.ReferenceIdeal.Read
open Idealize.ShloMosaic Idealize.ShloMosaic.ValueIdx
open OuterFlat

variable {F : FTy → Type} [FloatOps F]

/-- The product the reference forms, before it is flattened, is the batched outer product: the two chains of
    broadcasts read x at (i, j) and y at (i, k). -/
theorem product_eq (x y : (⟨S4096x256, .f32⟩ : BufTy).Contents (Elt F)) :
    val_main_v4 (F := F) x y = outer (n := 4096) (a := 256) (b := 256) x y := by
  funext i
  rw [val_main_v4_apply, val_main_v2_apply, val_main_v3_apply, val_main_v0_apply, val_main_v1_apply]
  unfold outer
  refine congrArg₂ FloatOps.mulf (congrArg x ?_) (congrArg y ?_)
  · funext a; match a with | ⟨0, _⟩ => rfl | ⟨1, _⟩ => rfl
  · funext a; match a with | ⟨0, _⟩ => rfl | ⟨1, _⟩ => rfl

end Cert.ReferenceIdeal.RefValue

end
-- ==== Proof.lean ====
/-
  The batched outer product, flattened: for x and y of 4096 rows and 256 columns the result has 4096 rows and
  256·256 columns, its entry at row i, column 256·j + k being x[i, j] · y[i, k].

  The kernel walks a 32 × 2 grid; a point takes 128 rows of x (128 of their columns) and of y (all 256 columns)
  and, 16 rows at a time, stores the products x[r, q] · y[r, l] into its block of a [4096, 256, 256] array; the host
  then reshapes that array to [4096, 65536].  The reference broadcasts x along a new last axis and y along a new
  middle axis, multiplies, and applies the same reshape.  Both three-dimensional arrays are ONE function of the
  arguments, `OuterFlat.outer`: entry (i, j, k) is x[i, j] · y[i, k] — a single multiplication per entry, the same on
  both sides, so no law of arithmetic is needed and the inputs' finiteness is never used.  The modules:
  Spec (the function), BlockValue (one grid point's body leaves its block of it), KernelArray (the blocks cover
  the array; the reshape after the region), RefValue (the reference's broadcasts read the same entries).
  The three frames are the generated ones (the reference's is its generated run with the result dropped); the
  idealization rewrote nothing, so the fourth conjunct is `True`.
-/
import proofs.«110670_j17746804867414_2_alg».proof.Defs
import proofs.«110670_j17746804867414_2_alg».proof.Proof.Gen.Kernel
import proofs.«110670_j17746804867414_2_alg».proof.Proof.Gen.Kernel.Skeleton
import proofs.«110670_j17746804867414_2_alg».proof.Proof.Gen.Kernel.Loops
import proofs.«110670_j17746804867414_2_alg».proof.Proof.Gen.Kernel.Launch
import proofs.«110670_j17746804867414_2_alg».proof.Proof.Gen.Kernel.Points
import proofs.«110670_j17746804867414_2_alg».proof.Proof.Gen.Kernel.Frame
import proofs.«110670_j17746804867414_2_alg».proof.Proof.Gen.KernelIdeal
import proofs.«110670_j17746804867414_2_alg».proof.Proof.Gen.KernelIdeal.Skeleton
import proofs.«110670_j17746804867414_2_alg».proof.Proof.Gen.KernelIdeal.Loops
import proofs.«110670_j17746804867414_2_alg».proof.Proof.Gen.KernelIdeal.Launch
import proofs.«110670_j17746804867414_2_alg».proof.Proof.Gen.KernelIdeal.Points
import proofs.«110670_j17746804867414_2_alg».proof.Proof.Gen.KernelIdeal.Frame
import proofs.«110670_j17746804867414_2_alg».proof.Proof.Gen.ReferenceIdeal
import proofs.«110670_j17746804867414_2_alg».proof.Proof.Gen.ReferenceIdeal.Run
import proofs.«110670_j17746804867414_2_alg».proof.Proof.Gen.ReferenceIdeal.Read
import proofs.«110670_j17746804867414_2_alg».proof.Proof.Gen.Pre_finite_inputs
import proofs.«110670_j17746804867414_2_alg».proof.Proof.KernelArray
import proofs.«110670_j17746804867414_2_alg».proof.Proof.RefValue
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reshape of the batched outer product of arguments that agree. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.ReferenceIdeal.RefValue.product_eq, (hagree c).1, (hagree c).2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
